-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x360x736 : Shape := ⟨4, ![1, 16, 360, 736]⟩
abbrev S1x360x16384x2 : Shape := ⟨4, ![1, 360, 16384, 2]⟩
abbrev S1x1x360x16384 : Shape := ⟨4, ![1, 1, 360, 16384]⟩
abbrev S_ : Shape := ⟨0, ![]⟩

class Facts : Prop where
  bcast_S_S1x16x360x736 : S_.BroadcastsInDim S1x16x360x736 (![] : Fin 0 → Fin S1x16x360x736.rank)
  reducesTo_S1x16x360x736_S_d0_1_2_3 : S1x16x360x736.ReducesTo [0, 1, 2, 3] S_
  h_S_ : 0 < S_.numel
  bcast_S_S1x360x16384x2 : S_.BroadcastsInDim S1x360x16384x2 (![] : Fin 0 → Fin S1x360x16384x2.rank)
  reducesTo_S1x360x16384x2_S_d0_1_2_3 : S1x360x16384x2.ReducesTo [0, 1, 2, 3] S_
  bcast_S_S1x1x360x16384 : S_.BroadcastsInDim S1x1x360x16384 (![] : Fin 0 → Fin S1x1x360x16384.rank)
  reducesTo_S1x1x360x16384_S_d0_1_2_3 : S1x1x360x16384.ReducesTo [0, 1, 2, 3] S_

variable [Facts]

def fn {F : FTy → Type} [FloatOps F] (main_arg0 : FVec F S1x16x360x736 .f32) (main_arg1 : FVec F S1x360x16384x2 .f32) (main_arg2 : FVec F S1x1x360x16384 .f32) : IVec S_ 1 :=
  let main_v0 : FVec F S1x16x360x736 .f32 := Host.absf main_arg0
  let main_cst : FVec F S_ .f32 := constant S_ .f32 0x7F800000#32
  let main_v1 : FVec F S1x16x360x736 .f32 := broadcastInDim S1x16x360x736 ![] bcast_S_S1x16x360x736 main_cst
  let main_v2 : IVec S1x16x360x736 1 := cmpf .olt main_v0 main_v1
  let main_c : IVec S_ 1 := constantI S_ 1 1#1
  let main_v3 : IVec S_ 1 := (fun x v => Host.reduce IntOp.andi x v reducesTo_S1x16x360x736_S_d0_1_2_3 h_S_) main_v2 main_c
  let main_v4 : FVec F S1x360x16384x2 .f32 := Host.absf main_arg1
  let main_cst_0 : FVec F S_ .f32 := constant S_ .f32 0x7F800000#32
  let main_v5 : FVec F S1x360x16384x2 .f32 := broadcastInDim S1x360x16384x2 ![] bcast_S_S1x360x16384x2 main_cst_0
  let main_v6 : IVec S1x360x16384x2 1 := cmpf .olt main_v4 main_v5
  let main_c_1 : IVec S_ 1 := constantI S_ 1 1#1
  let main_v7 : IVec S_ 1 := (fun x v => Host.reduce IntOp.andi x v reducesTo_S1x360x16384x2_S_d0_1_2_3 h_S_) main_v6 main_c_1
  let main_v8 : IVec S_ 1 := andi main_v3 main_v7
  let main_v9 : FVec F S1x1x360x16384 .f32 := Host.absf main_arg2
  let main_cst_2 : FVec F S_ .f32 := constant S_ .f32 0x7F800000#32
  let main_v10 : FVec F S1x1x360x16384 .f32 := broadcastInDim S1x1x360x16384 ![] bcast_S_S1x1x360x16384 main_cst_2
  let main_v11 : IVec S1x1x360x16384 1 := cmpf .olt main_v9 main_v10
  let main_c_3 : IVec S_ 1 := constantI S_ 1 1#1
  let main_v12 : IVec S_ 1 := (fun x v => Host.reduce IntOp.andi x v reducesTo_S1x1x360x16384_S_d0_1_2_3 h_S_) main_v11 main_c_3
  let main_v13 : IVec S_ 1 := andi main_v8 main_v12
  main_v13
-- ==== Kernel.lean ====
abbrev S1x16x360x736 : Shape := ⟨4, ![1, 16, 360, 736]⟩
abbrev S1x360x16384x2 : Shape := ⟨4, ![1, 360, 16384, 2]⟩
abbrev S1x1x360x16384 : Shape := ⟨4, ![1, 1, 360, 16384]⟩
abbrev S1x360x16384x1 : Shape := ⟨4, ![1, 360, 16384, 1]⟩
abbrev S1x360x16384 : Shape := ⟨3, ![1, 360, 16384]⟩
abbrev S_ : Shape := ⟨0, ![]⟩
abbrev S1x16x360x16384 : Shape := ⟨4, ![1, 16, 360, 16384]⟩
abbrev S16x360x16384 : Shape := ⟨3, ![16, 360, 16384]⟩
abbrev S16x16384 : Shape := ⟨2, ![16, 16384]⟩
abbrev S16x360x512 : Shape := ⟨3, ![16, 360, 512]⟩
abbrev S1x360x512 : Shape := ⟨3, ![1, 360, 512]⟩
abbrev S16x512 : Shape := ⟨2, ![16, 512]⟩
abbrev S16x40x512 : Shape := ⟨3, ![16, 40, 512]⟩
abbrev S1x40x512 : Shape := ⟨3, ![1, 40, 512]⟩
abbrev S1x16x16384 : Shape := ⟨3, ![1, 16, 16384]⟩

abbrev nBuf : Space → Nat
  | .hbm => 186
  | .vmem => 7
  | .smem => 0
  | _ => 0

abbrev hbmTy0_0 (i : Nat) : BufTy := match i % 128 with
  | 0 => ⟨S1x16x360x736, .f32⟩
  | 1 => ⟨S1x360x16384x2, .f32⟩
  | 2 => ⟨S1x1x360x16384, .f32⟩
  | 3 => ⟨S1x360x16384x1, .f32⟩
  | 4 => ⟨S1x360x16384, .f32⟩
  | 5 => ⟨S1x360x16384x1, .f32⟩
  | 6 => ⟨S1x360x16384, .f32⟩
  | 7 => ⟨S_, .f32⟩
  | 8 => ⟨S1x360x16384, .f32⟩
  | 9 => ⟨S1x360x16384, .f32⟩
  | 10 => ⟨S_, .f32⟩
  | 11 => ⟨S1x360x16384, .f32⟩
  | 12 => ⟨S1x360x16384, .f32⟩
  | 13 => ⟨S_, .f32⟩
  | 14 => ⟨S1x360x16384, .f32⟩
  | 15 => ⟨S1x360x16384, .f32⟩
  | 16 => ⟨S_, .f32⟩
  | 17 => ⟨S1x360x16384, .f32⟩
  | 18 => ⟨S1x360x16384, .f32⟩
  | 19 => ⟨S_, .f32⟩
  | 20 => ⟨S1x360x16384, .f32⟩
  | 21 => ⟨S1x360x16384, .f32⟩
  | 22 => ⟨S_, .f32⟩
  | 23 => ⟨S1x360x16384, .f32⟩
  | 24 => ⟨S1x360x16384, .f32⟩
  | 25 => ⟨S_, .f32⟩
  | 26 => ⟨S1x360x16384, .f32⟩
  | 27 => ⟨S1x360x16384, .f32⟩
  | 28 => ⟨S_, .f32⟩
  | 29 => ⟨S1x360x16384, .f32⟩
  | 30 => ⟨S1x360x16384, .f32⟩
  | 31 => ⟨S1x360x16384, .f32⟩
  | 32 => ⟨S1x360x16384, .f32⟩
  | 33 => ⟨S1x360x16384, .f32⟩
  | 34 => ⟨S1x1x360x16384, .f32⟩
  | 35 => ⟨S1x360x16384, .f32⟩
  | 36 => ⟨S1x1x360x16384, .f32⟩
  | 37 => ⟨S1x360x16384, .i32⟩
  | 38 => ⟨S_, .i32⟩
  | 39 => ⟨S_, .i32⟩
  | 40 => ⟨S_, .i32⟩
  | 41 => ⟨S1x360x16384, .i32⟩
  | 42 => ⟨S1x360x16384, .i32⟩
  | 43 => ⟨S_, .i32⟩
  | 44 => ⟨S1x360x16384, .i32⟩
  | 45 => ⟨S1x360x16384, .i32⟩
  | 46 => ⟨S1x360x16384, .i32⟩
  | 47 => ⟨S_, .i32⟩
  | 48 => ⟨S1x360x16384, .i32⟩
  | 49 => ⟨S1x360x16384, .i32⟩
  | 50 => ⟨S_, .i32⟩
  | 51 => ⟨S_, .i32⟩
  | 52 => ⟨S_, .i32⟩
  | 53 => ⟨S1x360x16384, .i32⟩
  | 54 => ⟨S1x360x16384, .i32⟩
  | 55 => ⟨S_, .i32⟩
  | 56 => ⟨S1x360x16384, .i32⟩
  | 57 => ⟨S1x360x16384, .i32⟩
  | 58 => ⟨S1x360x16384, .i32⟩
  | 59 => ⟨S_, .i32⟩
  | 60 => ⟨S_, .i32⟩
  | 61 => ⟨S_, .i32⟩
  | 62 => ⟨S1x360x16384, .i32⟩
  | 63 => ⟨S1x360x16384, .i32⟩
  | 64 => ⟨S_, .i32⟩
  | 65 => ⟨S1x360x16384, .i32⟩
  | 66 => ⟨S1x360x16384, .i32⟩
  | 67 => ⟨S1x360x16384, .i32⟩
  | 68 => ⟨S_, .i32⟩
  | 69 => ⟨S1x360x16384, .i32⟩
  | 70 => ⟨S1x360x16384, .i32⟩
  | 71 => ⟨S_, .i32⟩
  | 72 => ⟨S_, .i32⟩
  | 73 => ⟨S_, .i32⟩
  | 74 => ⟨S1x360x16384, .i32⟩
  | 75 => ⟨S1x360x16384, .i32⟩
  | 76 => ⟨S_, .i32⟩
  | 77 => ⟨S1x360x16384, .i32⟩
  | 78 => ⟨S1x360x16384, .i32⟩
  | 79 => ⟨S_, .i32⟩
  | 80 => ⟨S1x360x16384, .i32⟩
  | 81 => ⟨S1x360x16384, .i1⟩
  | 82 => ⟨S_, .i32⟩
  | 83 => ⟨S1x360x16384, .i32⟩
  | 84 => ⟨S1x360x16384, .i32⟩
  | 85 => ⟨S1x360x16384, .i32⟩
  | 86 => ⟨S_, .i32⟩
  | 87 => ⟨S1x360x16384, .i32⟩
  | 88 => ⟨S1x360x16384, .i1⟩
  | 89 => ⟨S_, .i32⟩
  | 90 => ⟨S1x360x16384, .i32⟩
  | 91 => ⟨S1x360x16384, .i32⟩
  | 92 => ⟨S1x360x16384, .i32⟩
  | 93 => ⟨S1x360x16384x1, .i32⟩
  | 94 => ⟨S1x360x16384x1, .i32⟩
  | 95 => ⟨S1x360x16384x2, .i32⟩
  | 96 => ⟨S1x16x360x16384, .f32⟩
  | 97 => ⟨S_, .i32⟩
  | 98 => ⟨S1x360x16384, .i32⟩
  | 99 => ⟨S1x360x16384, .i1⟩
  | 100 => ⟨S_, .i32⟩
  | 101 => ⟨S1x360x16384, .i32⟩
  | 102 => ⟨S1x360x16384, .i32⟩
  | 103 => ⟨S1x360x16384, .i32⟩
  | 104 => ⟨S_, .i32⟩
  | 105 => ⟨S1x360x16384, .i32⟩
  | 106 => ⟨S1x360x16384, .i1⟩
  | 107 => ⟨S_, .i32⟩
  | 108 => ⟨S1x360x16384, .i32⟩
  | 109 => ⟨S1x360x16384, .i32⟩
  | 110 => ⟨S1x360x16384, .i32⟩
  | 111 => ⟨S1x360x16384x1, .i32⟩
  | 112 => ⟨S1x360x16384x1, .i32⟩
  | 113 => ⟨S1x360x16384x2, .i32⟩
  | 114 => ⟨S1x16x360x16384, .f32⟩
  | 115 => ⟨S_, .i32⟩
  | 116 => ⟨S1x360x16384, .i32⟩
  | 117 => ⟨S1x360x16384, .i1⟩
  | 118 => ⟨S_, .i32⟩
  | 119 => ⟨S1x360x16384, .i32⟩
  | 120 => ⟨S1x360x16384, .i32⟩
  | 121 => ⟨S1x360x16384, .i32⟩
  | 122 => ⟨S_, .i32⟩
  | 123 => ⟨S1x360x16384, .i32⟩
  | 124 => ⟨S1x360x16384, .i1⟩
  | 125 => ⟨S_, .i32⟩
  | 126 => ⟨S1x360x16384, .i32⟩
  | 127 => ⟨S1x360x16384, .i32⟩
  | _ => ⟨S1x16x360x736, .f32⟩

abbrev hbmTy0_1 (i : Nat) : BufTy := match i % 128 with
  | 0 => ⟨S1x360x16384, .i32⟩
  | 1 => ⟨S1x360x16384x1, .i32⟩
  | 2 => ⟨S1x360x16384x1, .i32⟩
  | 3 => ⟨S1x360x16384x2, .i32⟩
  | 4 => ⟨S1x16x360x16384, .f32⟩
  | 5 => ⟨S_, .i32⟩
  | 6 => ⟨S1x360x16384, .i32⟩
  | 7 => ⟨S1x360x16384, .i1⟩
  | 8 => ⟨S_, .i32⟩
  | 9 => ⟨S1x360x16384, .i32⟩
  | 10 => ⟨S1x360x16384, .i32⟩
  | 11 => ⟨S1x360x16384, .i32⟩
  | 12 => ⟨S_, .i32⟩
  | 13 => ⟨S1x360x16384, .i32⟩
  | 14 => ⟨S1x360x16384, .i1⟩
  | 15 => ⟨S_, .i32⟩
  | 16 => ⟨S1x360x16384, .i32⟩
  | 17 => ⟨S1x360x16384, .i32⟩
  | 18 => ⟨S1x360x16384, .i32⟩
  | 19 => ⟨S1x360x16384x1, .i32⟩
  | 20 => ⟨S1x360x16384x1, .i32⟩
  | 21 => ⟨S1x360x16384x2, .i32⟩
  | 22 => ⟨S1x16x360x16384, .f32⟩
  | 23 => ⟨S_, .f32⟩
  | 24 => ⟨S1x1x360x16384, .f32⟩
  | 25 => ⟨S1x1x360x16384, .f32⟩
  | 26 => ⟨S1x16x360x16384, .f32⟩
  | 27 => ⟨S1x16x360x16384, .f32⟩
  | 28 => ⟨S_, .f32⟩
  | 29 => ⟨S1x1x360x16384, .f32⟩
  | 30 => ⟨S1x1x360x16384, .f32⟩
  | 31 => ⟨S1x16x360x16384, .f32⟩
  | 32 => ⟨S1x16x360x16384, .f32⟩
  | 33 => ⟨S1x16x360x16384, .f32⟩
  | 34 => ⟨S1x16x360x16384, .f32⟩
  | 35 => ⟨S_, .f32⟩
  | 36 => ⟨S1x1x360x16384, .f32⟩
  | 37 => ⟨S1x1x360x16384, .f32⟩
  | 38 => ⟨S1x16x360x16384, .f32⟩
  | 39 => ⟨S1x16x360x16384, .f32⟩
  | 40 => ⟨S1x16x360x16384, .f32⟩
  | 41 => ⟨S_, .f32⟩
  | 42 => ⟨S1x1x360x16384, .f32⟩
  | 43 => ⟨S1x1x360x16384, .f32⟩
  | 44 => ⟨S1x16x360x16384, .f32⟩
  | 45 => ⟨S1x16x360x16384, .f32⟩
  | 46 => ⟨S1x16x360x16384, .f32⟩
  | 47 => ⟨S1x16x360x16384, .f32⟩
  | 48 => ⟨S1x16x360x16384, .f32⟩
  | 49 => ⟨S1x16x360x16384, .f32⟩
  | 50 => ⟨S1x16x360x16384, .f32⟩
  | 51 => ⟨S1x16x360x16384, .f32⟩
  | 52 => ⟨S1x16x360x16384, .f32⟩
  | 53 => ⟨S1x16x360x16384, .f32⟩
  | 54 => ⟨S16x360x16384, .f32⟩
  | 55 => ⟨S1x360x16384, .f32⟩
  | 56 => ⟨S16x16384, .f32⟩
  | 57 => ⟨S1x16x16384, .f32⟩
  | _ => ⟨S1x16x360x736, .f32⟩

abbrev hbmTy (i : Nat) : BufTy := match i / 128 with
  | 0 => hbmTy0_0 i
  | 1 => hbmTy0_1 i
  | _ => ⟨S1x16x360x736, .f32⟩

abbrev bufTy : (tb : Table) → Fin (tcTables nBuf tb) → BufTy
  | .hbm, ⟨i, _⟩ => hbmTy i
  | .local _ .vmem, ⟨0, _⟩ => ⟨S16x360x512, .f32⟩
  | .local _ .vmem, ⟨1, _⟩ => ⟨S16x360x512, .f32⟩
  | .local _ .vmem, ⟨2, _⟩ => ⟨S1x360x512, .f32⟩
  | .local _ .vmem, ⟨3, _⟩ => ⟨S1x360x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | _, _ => ⟨S1x16x360x736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_c_7 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_c_10 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_c_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v33 : Ref sig .tc := ⟨.hbm, 66, rfl⟩
abbrev main_v34 : Ref sig .tc := ⟨.hbm, 67, rfl⟩
abbrev main_c_13 : Ref sig .tc := ⟨.hbm, 68, rfl⟩
abbrev main_v35 : Ref sig .tc := ⟨.hbm, 69, rfl⟩
abbrev main_v36 : Ref sig .tc := ⟨.hbm, 70, rfl⟩
abbrev main_c_14 : Ref sig .tc := ⟨.hbm, 71, rfl⟩
abbrev main_c_15 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v37 : Ref sig .tc := ⟨.hbm, 78, rfl⟩
abbrev main_c_16 : Ref sig .tc := ⟨.hbm, 79, rfl⟩
abbrev main_v38 : Ref sig .tc := ⟨.hbm, 80, rfl⟩
abbrev main_v39 : Ref sig .tc := ⟨.hbm, 81, rfl⟩
abbrev main_c_17 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_18 : Ref sig .tc := ⟨.hbm, 86, rfl⟩
abbrev main_v43 : Ref sig .tc := ⟨.hbm, 87, rfl⟩
abbrev main_v44 : Ref sig .tc := ⟨.hbm, 88, rfl⟩
abbrev main_c_19 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_20 : Ref sig .tc := ⟨.hbm, 97, rfl⟩
abbrev main_v52 : Ref sig .tc := ⟨.hbm, 98, rfl⟩
abbrev main_v53 : Ref sig .tc := ⟨.hbm, 99, rfl⟩
abbrev main_c_21 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_22 : Ref sig .tc := ⟨.hbm, 104, rfl⟩
abbrev main_v57 : Ref sig .tc := ⟨.hbm, 105, rfl⟩
abbrev main_v58 : Ref sig .tc := ⟨.hbm, 106, rfl⟩
abbrev main_c_23 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_24 : Ref sig .tc := ⟨.hbm, 115, rfl⟩
abbrev main_v66 : Ref sig .tc := ⟨.hbm, 116, rfl⟩
abbrev main_v67 : Ref sig .tc := ⟨.hbm, 117, rfl⟩
abbrev main_c_25 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_26 : Ref sig .tc := ⟨.hbm, 122, rfl⟩
abbrev main_v71 : Ref sig .tc := ⟨.hbm, 123, rfl⟩
abbrev main_v72 : Ref sig .tc := ⟨.hbm, 124, rfl⟩
abbrev main_c_27 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_28 : Ref sig .tc := ⟨.hbm, 133, rfl⟩
abbrev main_v80 : Ref sig .tc := ⟨.hbm, 134, rfl⟩
abbrev main_v81 : Ref sig .tc := ⟨.hbm, 135, rfl⟩
abbrev main_c_29 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_30 : Ref sig .tc := ⟨.hbm, 140, rfl⟩
abbrev main_v85 : Ref sig .tc := ⟨.hbm, 141, rfl⟩
abbrev main_v86 : Ref sig .tc := ⟨.hbm, 142, rfl⟩
abbrev main_c_31 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_32 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_33 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_34 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_35 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c40_i32 : BitVec 32 := 40#32
  let v4 : BitVec 32 := Scalar.muli c0_i32 c40_i32
  v4
def k0_off1 (c0_i32 : BitVec 32) : Fin 3 → Nat :=
  let c0_1 : Index := 0#32
  let c40_i32 : BitVec 32 := 40#32
  let v4 : BitVec 32 := Scalar.muli c0_i32 c40_i32
  let v5 : BitVec 32 := v4
  let v6 : Index := Scalar.indexCast v5
  let c0_2 : Index := 0#32
  ![0, v6.toNat, 0]
def k0_off2 (c0_i32 : BitVec 32) : Fin 3 → Nat :=
  let c0_3 : Index := 0#32
  let c40_i32 : BitVec 32 := 40#32
  let v4 : BitVec 32 := Scalar.muli c0_i32 c40_i32
  let v5 : BitVec 32 := v4
  let v9 : Index := Scalar.indexCast v5
  let c0_4 : Index := 0#32
  ![0, v9.toNat, 0]
def k0_mult2 : BitVec 32 :=
  let c1_i32 : BitVec 32 := 1#32
  let c40_i32_11 : BitVec 32 := 40#32
  let v22 : BitVec 32 := Scalar.muli c1_i32 c40_i32_11
  v22
def k0_mult3 : BitVec 32 :=
  let c2_i32 : BitVec 32 := 2#32
  let c40_i32_22 : BitVec 32 := 40#32
  let v40 : BitVec 32 := Scalar.muli c2_i32 c40_i32_22
  v40
def k0_mult4 : BitVec 32 :=
  let c3_i32 : BitVec 32 := 3#32
  let c40_i32_33 : BitVec 32 := 40#32
  let v58 : BitVec 32 := Scalar.muli c3_i32 c40_i32_33
  v58
def k0_mult5 : BitVec 32 :=
  let c4_i32 : BitVec 32 := 4#32
  let c40_i32_44 : BitVec 32 := 40#32
  let v76 : BitVec 32 := Scalar.muli c4_i32 c40_i32_44
  v76
def k0_mult6 : BitVec 32 :=
  let c5_i32 : BitVec 32 := 5#32
  let c40_i32_55 : BitVec 32 := 40#32
  let v94 : BitVec 32 := Scalar.muli c5_i32 c40_i32_55
  v94
def k0_mult7 : BitVec 32 :=
  let c6_i32 : BitVec 32 := 6#32
  let c40_i32_66 : BitVec 32 := 40#32
  let v112 : BitVec 32 := Scalar.muli c6_i32 c40_i32_66
  v112
def k0_mult8 : BitVec 32 :=
  let c7_i32 : BitVec 32 := 7#32
  let c40_i32_77 : BitVec 32 := 40#32
  let v130 : BitVec 32 := Scalar.muli c7_i32 c40_i32_77
  v130
def k0_mult9 : BitVec 32 :=
  let c8_i32 : BitVec 32 := 8#32
  let c40_i32_88 : BitVec 32 := 40#32
  let v148 : BitVec 32 := Scalar.muli c8_i32 c40_i32_88
  v148
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x360x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x360x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1x360x16384x2_S1x360x16384x1_0_0_0_0 : S1x360x16384x2.Slices ![0, 0, 0, 0] S1x360x16384x1
  shapeCasts_S1x360x16384x1_S1x360x16384 : S1x360x16384x1.ShapeCasts S1x360x16384
  slices_S1x360x16384x2_S1x360x16384x1_0_0_0_1 : S1x360x16384x2.Slices ![0, 0, 0, 1] S1x360x16384x1
  bcast_S_S1x360x16384 : S_.BroadcastsInDim S1x360x16384 (![] : Fin 0 → Fin S1x360x16384.rank)
  bcast_S1x360x16384_S1x1x360x16384_0_2_3 : S1x360x16384.BroadcastsInDim S1x1x360x16384 (![0, 2, 3] : Fin 3 → Fin S1x1x360x16384.rank)
  bcast_S1x360x16384_S1x360x16384x1_0_1_2 : S1x360x16384.BroadcastsInDim S1x360x16384x1 (![0, 1, 2] : Fin 3 → Fin S1x360x16384x1.rank)
  concatenates_S1x360x16384x1_S1x360x16384x1_S1x360x16384x2_d3 : Shape.Concatenates [S1x360x16384x1, S1x360x16384x1] S1x360x16384x2 3
  bcast_S_S1x1x360x16384 : S_.BroadcastsInDim S1x1x360x16384 (![] : Fin 0 → Fin S1x1x360x16384.rank)
  bcast_S1x1x360x16384_S1x16x360x16384_0_1_2_3 : S1x1x360x16384.BroadcastsInDim S1x16x360x16384 (![0, 1, 2, 3] : Fin 4 → Fin S1x16x360x16384.rank)
  shapeCasts_S1x16x360x16384_S16x360x16384 : S1x16x360x16384.ShapeCasts S16x360x16384
  shapeCasts_S1x1x360x16384_S1x360x16384 : S1x1x360x16384.ShapeCasts S1x360x16384
  inb_S16x512_S16x512_0_0 : ∀ a, (![0, 0] : Fin 2 → Nat) a + S16x512.size a ≤ S16x512.size a
  h_S16x512 : 0 < S16x512.numel
  shapeCasts_S16x512_S16x512 : S16x512.ShapeCasts S16x512
  h_S16x40x512 : 0 < S16x40x512.numel
  shapeCasts_S16x40x512_S16x40x512 : S16x40x512.ShapeCasts S16x40x512
  h_S1x40x512 : 0 < S1x40x512.numel
  shapeCasts_S1x40x512_S1x40x512 : S1x40x512.ShapeCasts S1x40x512
  broadcasts_S1x40x512_S16x40x512 : S1x40x512.Broadcasts S16x40x512
  reduces_S16x40x512_S16x512 : S16x40x512.Reduces [1] S16x512
  bcast_S16x16384_S1x16x16384_1_2 : S16x16384.BroadcastsInDim S1x16x16384 (![1, 2] : Fin 2 → Fin S1x16x16384.rank)
  gather_S1x16x360x736_S1x360x16384x2_S1x16x360x16384_1_23_0_0_23_3_11611_wf : GatherDims.WF S1x16x360x736 S1x360x16384x2 S1x16x360x16384 [1] [2, 3] [0] [2, 3] [0] 3 ![1, 16, 1, 1]
  hrank0 : 0 < grid0.rank
  k0_mult1_dvd : 40 ∣ k0_mult1.toNat
  k0_off1_inb : ∀ (r : Fin 9), ∀ a, (k0_off1 (BitVec.ofNat 32 r.val)) a + S16x40x512.size a ≤ S16x360x512.size a
  k0_off2_inb : ∀ (r : Fin 9), ∀ a, (k0_off2 (BitVec.ofNat 32 r.val)) a + S1x40x512.size a ≤ S1x360x512.size a
  k0_mult2_dvd : 40 ∣ k0_mult2.toNat
  k0_mult3_dvd : 40 ∣ k0_mult3.toNat
  k0_mult4_dvd : 40 ∣ k0_mult4.toNat
  k0_mult5_dvd : 40 ∣ k0_mult5.toNat
  k0_mult6_dvd : 40 ∣ k0_mult6.toNat
  k0_mult7_dvd : 40 ∣ k0_mult7.toNat
  k0_mult8_dvd : 40 ∣ k0_mult8.toNat
  k0_mult9_dvd : 40 ∣ k0_mult9.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x360x512.size a ≤ S16x360x16384.size a
  hwx0_0 : ∀ i : grid0.Coords, EltTy.bits .f32 = 32 ∨ (Rect.block (s := S16x360x16384) S16x360x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x360x512.size a ≤ S1x360x16384.size a
  hwx0_1 : ∀ i : grid0.Coords, EltTy.bits .f32 = 32 ∨ (Rect.block (s := S1x360x16384) S1x360x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x16384.size a
  hwx0_2 : ∀ i : grid0.Coords, EltTy.bits .f32 = 32 ∨ (Rect.block (s := S16x16384) S16x512.size (cc0_transform_2 i) (hinb0_2 i)).WholeWords (EltTy.packing .f32)

variable [Facts₀]

def gather_S1x16x360x736_S1x360x16384x2_S1x16x360x16384_1_23_0_0_23_3_11611 : GatherDims S1x16x360x736 S1x360x16384x2 S1x16x360x16384 where
  offsetDims := [1]
  collapsedSliceDims := [2, 3]
  operandBatchingDims := [0]
  startIndicesBatchingDims := [0]
  startIndexMap := [2, 3]
  indexVectorDim := 3
  sliceSizes := ![1, 16, 1, 1]
  wf := gather_S1x16x360x736_S1x360x16384x2_S1x16x360x16384_1_23_0_0_23_3_11611_wf

abbrev win0_0 : Pipeline.Window sig grid0 :=
  Pipeline.Window.ofSpec (Memref.whole main_v121) S16x360x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v122) S1x360x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v123) S16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x16x360x736 : Shape := ⟨4, ![1, 16, 360, 736]⟩
abbrev S1x360x16384x2 : Shape := ⟨4, ![1, 360, 16384, 2]⟩
abbrev S1x1x360x16384 : Shape := ⟨4, ![1, 1, 360, 16384]⟩
abbrev S1x360x16384x1 : Shape := ⟨4, ![1, 360, 16384, 1]⟩
abbrev S1x360x16384 : Shape := ⟨3, ![1, 360, 16384]⟩
abbrev S_ : Shape := ⟨0, ![]⟩
abbrev S1x16x360x16384 : Shape := ⟨4, ![1, 16, 360, 16384]⟩
abbrev S1x16x16384 : Shape := ⟨3, ![1, 16, 16384]⟩

abbrev nBuf : Space → Nat
  | .hbm => 189
  | .vmem => 0
  | .smem => 0
  | _ => 0

abbrev hbmTy0_0 (i : Nat) : BufTy := match i % 128 with
  | 0 => ⟨S1x16x360x736, .f32⟩
  | 1 => ⟨S1x360x16384x2, .f32⟩
  | 2 => ⟨S1x1x360x16384, .f32⟩
  | 3 => ⟨S1x360x16384x1, .f32⟩
  | 4 => ⟨S1x360x16384, .f32⟩
  | 5 => ⟨S1x360x16384x1, .f32⟩
  | 6 => ⟨S1x360x16384, .f32⟩
  | 7 => ⟨S_, .f32⟩
  | 8 => ⟨S1x360x16384, .f32⟩
  | 9 => ⟨S1x360x16384, .f32⟩
  | 10 => ⟨S_, .f32⟩
  | 11 => ⟨S1x360x16384, .f32⟩
  | 12 => ⟨S1x360x16384, .f32⟩
  | 13 => ⟨S_, .f32⟩
  | 14 => ⟨S1x360x16384, .f32⟩
  | 15 => ⟨S1x360x16384, .f32⟩
  | 16 => ⟨S_, .f32⟩
  | 17 => ⟨S1x360x16384, .f32⟩
  | 18 => ⟨S1x360x16384, .f32⟩
  | 19 => ⟨S_, .f32⟩
  | 20 => ⟨S1x360x16384, .f32⟩
  | 21 => ⟨S1x360x16384, .f32⟩
  | 22 => ⟨S_, .f32⟩
  | 23 => ⟨S1x360x16384, .f32⟩
  | 24 => ⟨S1x360x16384, .f32⟩
  | 25 => ⟨S_, .f32⟩
  | 26 => ⟨S1x360x16384, .f32⟩
  | 27 => ⟨S1x360x16384, .f32⟩
  | 28 => ⟨S_, .f32⟩
  | 29 => ⟨S1x360x16384, .f32⟩
  | 30 => ⟨S1x360x16384, .f32⟩
  | 31 => ⟨S1x360x16384, .f32⟩
  | 32 => ⟨S1x360x16384, .f32⟩
  | 33 => ⟨S1x360x16384, .f32⟩
  | 34 => ⟨S1x1x360x16384, .f32⟩
  | 35 => ⟨S1x360x16384, .f32⟩
  | 36 => ⟨S1x1x360x16384, .f32⟩
  | 37 => ⟨S1x360x16384, .i32⟩
  | 38 => ⟨S_, .i32⟩
  | 39 => ⟨S_, .i32⟩
  | 40 => ⟨S_, .i32⟩
  | 41 => ⟨S1x360x16384, .i32⟩
  | 42 => ⟨S1x360x16384, .i32⟩
  | 43 => ⟨S_, .i32⟩
  | 44 => ⟨S1x360x16384, .i32⟩
  | 45 => ⟨S1x360x16384, .i32⟩
  | 46 => ⟨S1x360x16384, .i32⟩
  | 47 => ⟨S_, .i32⟩
  | 48 => ⟨S1x360x16384, .i32⟩
  | 49 => ⟨S1x360x16384, .i32⟩
  | 50 => ⟨S_, .i32⟩
  | 51 => ⟨S_, .i32⟩
  | 52 => ⟨S_, .i32⟩
  | 53 => ⟨S1x360x16384, .i32⟩
  | 54 => ⟨S1x360x16384, .i32⟩
  | 55 => ⟨S_, .i32⟩
  | 56 => ⟨S1x360x16384, .i32⟩
  | 57 => ⟨S1x360x16384, .i32⟩
  | 58 => ⟨S1x360x16384, .i32⟩
  | 59 => ⟨S_, .i32⟩
  | 60 => ⟨S_, .i32⟩
  | 61 => ⟨S_, .i32⟩
  | 62 => ⟨S1x360x16384, .i32⟩
  | 63 => ⟨S1x360x16384, .i32⟩
  | 64 => ⟨S_, .i32⟩
  | 65 => ⟨S1x360x16384, .i32⟩
  | 66 => ⟨S1x360x16384, .i32⟩
  | 67 => ⟨S1x360x16384, .i32⟩
  | 68 => ⟨S_, .i32⟩
  | 69 => ⟨S1x360x16384, .i32⟩
  | 70 => ⟨S1x360x16384, .i32⟩
  | 71 => ⟨S_, .i32⟩
  | 72 => ⟨S_, .i32⟩
  | 73 => ⟨S_, .i32⟩
  | 74 => ⟨S1x360x16384, .i32⟩
  | 75 => ⟨S1x360x16384, .i32⟩
  | 76 => ⟨S_, .i32⟩
  | 77 => ⟨S1x360x16384, .i32⟩
  | 78 => ⟨S1x360x16384, .i32⟩
  | 79 => ⟨S_, .i32⟩
  | 80 => ⟨S1x360x16384, .i32⟩
  | 81 => ⟨S1x360x16384, .i1⟩
  | 82 => ⟨S_, .i32⟩
  | 83 => ⟨S1x360x16384, .i32⟩
  | 84 => ⟨S1x360x16384, .i32⟩
  | 85 => ⟨S1x360x16384, .i32⟩
  | 86 => ⟨S_, .i32⟩
  | 87 => ⟨S1x360x16384, .i32⟩
  | 88 => ⟨S1x360x16384, .i1⟩
  | 89 => ⟨S_, .i32⟩
  | 90 => ⟨S1x360x16384, .i32⟩
  | 91 => ⟨S1x360x16384, .i32⟩
  | 92 => ⟨S1x360x16384, .i32⟩
  | 93 => ⟨S1x360x16384x1, .i32⟩
  | 94 => ⟨S1x360x16384x1, .i32⟩
  | 95 => ⟨S1x360x16384x2, .i32⟩
  | 96 => ⟨S1x16x360x16384, .f32⟩
  | 97 => ⟨S_, .i32⟩
  | 98 => ⟨S1x360x16384, .i32⟩
  | 99 => ⟨S1x360x16384, .i1⟩
  | 100 => ⟨S_, .i32⟩
  | 101 => ⟨S1x360x16384, .i32⟩
  | 102 => ⟨S1x360x16384, .i32⟩
  | 103 => ⟨S1x360x16384, .i32⟩
  | 104 => ⟨S_, .i32⟩
  | 105 => ⟨S1x360x16384, .i32⟩
  | 106 => ⟨S1x360x16384, .i1⟩
  | 107 => ⟨S_, .i32⟩
  | 108 => ⟨S1x360x16384, .i32⟩
  | 109 => ⟨S1x360x16384, .i32⟩
  | 110 => ⟨S1x360x16384, .i32⟩
  | 111 => ⟨S1x360x16384x1, .i32⟩
  | 112 => ⟨S1x360x16384x1, .i32⟩
  | 113 => ⟨S1x360x16384x2, .i32⟩
  | 114 => ⟨S1x16x360x16384, .f32⟩
  | 115 => ⟨S_, .i32⟩
  | 116 => ⟨S1x360x16384, .i32⟩
  | 117 => ⟨S1x360x16384, .i1⟩
  | 118 => ⟨S_, .i32⟩
  | 119 => ⟨S1x360x16384, .i32⟩
  | 120 => ⟨S1x360x16384, .i32⟩
  | 121 => ⟨S1x360x16384, .i32⟩
  | 122 => ⟨S_, .i32⟩
  | 123 => ⟨S1x360x16384, .i32⟩
  | 124 => ⟨S1x360x16384, .i1⟩
  | 125 => ⟨S_, .i32⟩
  | 126 => ⟨S1x360x16384, .i32⟩
  | 127 => ⟨S1x360x16384, .i32⟩
  | _ => ⟨S1x16x360x736, .f32⟩

abbrev hbmTy0_1 (i : Nat) : BufTy := match i % 128 with
  | 0 => ⟨S1x360x16384, .i32⟩
  | 1 => ⟨S1x360x16384x1, .i32⟩
  | 2 => ⟨S1x360x16384x1, .i32⟩
  | 3 => ⟨S1x360x16384x2, .i32⟩
  | 4 => ⟨S1x16x360x16384, .f32⟩
  | 5 => ⟨S_, .i32⟩
  | 6 => ⟨S1x360x16384, .i32⟩
  | 7 => ⟨S1x360x16384, .i1⟩
  | 8 => ⟨S_, .i32⟩
  | 9 => ⟨S1x360x16384, .i32⟩
  | 10 => ⟨S1x360x16384, .i32⟩
  | 11 => ⟨S1x360x16384, .i32⟩
  | 12 => ⟨S_, .i32⟩
  | 13 => ⟨S1x360x16384, .i32⟩
  | 14 => ⟨S1x360x16384, .i1⟩
  | 15 => ⟨S_, .i32⟩
  | 16 => ⟨S1x360x16384, .i32⟩
  | 17 => ⟨S1x360x16384, .i32⟩
  | 18 => ⟨S1x360x16384, .i32⟩
  | 19 => ⟨S1x360x16384x1, .i32⟩
  | 20 => ⟨S1x360x16384x1, .i32⟩
  | 21 => ⟨S1x360x16384x2, .i32⟩
  | 22 => ⟨S1x16x360x16384, .f32⟩
  | 23 => ⟨S_, .f32⟩
  | 24 => ⟨S1x1x360x16384, .f32⟩
  | 25 => ⟨S1x1x360x16384, .f32⟩
  | 26 => ⟨S1x16x360x16384, .f32⟩
  | 27 => ⟨S1x16x360x16384, .f32⟩
  | 28 => ⟨S_, .f32⟩
  | 29 => ⟨S1x1x360x16384, .f32⟩
  | 30 => ⟨S1x1x360x16384, .f32⟩
  | 31 => ⟨S1x16x360x16384, .f32⟩
  | 32 => ⟨S1x16x360x16384, .f32⟩
  | 33 => ⟨S1x16x360x16384, .f32⟩
  | 34 => ⟨S1x16x360x16384, .f32⟩
  | 35 => ⟨S_, .f32⟩
  | 36 => ⟨S1x1x360x16384, .f32⟩
  | 37 => ⟨S1x1x360x16384, .f32⟩
  | 38 => ⟨S1x16x360x16384, .f32⟩
  | 39 => ⟨S1x16x360x16384, .f32⟩
  | 40 => ⟨S1x16x360x16384, .f32⟩
  | 41 => ⟨S_, .f32⟩
  | 42 => ⟨S1x1x360x16384, .f32⟩
  | 43 => ⟨S1x1x360x16384, .f32⟩
  | 44 => ⟨S1x16x360x16384, .f32⟩
  | 45 => ⟨S1x16x360x16384, .f32⟩
  | 46 => ⟨S1x16x360x16384, .f32⟩
  | 47 => ⟨S1x16x360x16384, .f32⟩
  | 48 => ⟨S1x16x360x16384, .f32⟩
  | 49 => ⟨S1x16x360x16384, .f32⟩
  | 50 => ⟨S1x16x360x16384, .f32⟩
  | 51 => ⟨S1x16x360x16384, .f32⟩
  | 52 => ⟨S1x16x360x16384, .f32⟩
  | 53 => ⟨S1x16x360x16384, .f32⟩
  | 54 => ⟨S1x16x360x16384, .f32⟩
  | 55 => ⟨S1x16x360x16384, .f32⟩
  | 56 => ⟨S_, .f32⟩
  | 57 => ⟨S1x16x360x16384, .f32⟩
  | 58 => ⟨S1x16x360x16384, .f32⟩
  | 59 => ⟨S_, .f32⟩
  | 60 => ⟨S1x16x16384, .f32⟩
  | _ => ⟨S1x16x360x736, .f32⟩

abbrev hbmTy (i : Nat) : BufTy := match i / 128 with
  | 0 => hbmTy0_0 i
  | 1 => hbmTy0_1 i
  | _ => ⟨S1x16x360x736, .f32⟩

abbrev bufTy : (tb : Table) → Fin (tcTables nBuf tb) → BufTy
  | .hbm, ⟨i, _⟩ => hbmTy i
  | _, _ => ⟨S1x16x360x736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_c_7 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_c_10 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_c_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v33 : Ref sig .tc := ⟨.hbm, 66, rfl⟩
abbrev main_v34 : Ref sig .tc := ⟨.hbm, 67, rfl⟩
abbrev main_c_13 : Ref sig .tc := ⟨.hbm, 68, rfl⟩
abbrev main_v35 : Ref sig .tc := ⟨.hbm, 69, rfl⟩
abbrev main_v36 : Ref sig .tc := ⟨.hbm, 70, rfl⟩
abbrev main_c_14 : Ref sig .tc := ⟨.hbm, 71, rfl⟩
abbrev main_c_15 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v37 : Ref sig .tc := ⟨.hbm, 78, rfl⟩
abbrev main_c_16 : Ref sig .tc := ⟨.hbm, 79, rfl⟩
abbrev main_v38 : Ref sig .tc := ⟨.hbm, 80, rfl⟩
abbrev main_v39 : Ref sig .tc := ⟨.hbm, 81, rfl⟩
abbrev main_c_17 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_18 : Ref sig .tc := ⟨.hbm, 86, rfl⟩
abbrev main_v43 : Ref sig .tc := ⟨.hbm, 87, rfl⟩
abbrev main_v44 : Ref sig .tc := ⟨.hbm, 88, rfl⟩
abbrev main_c_19 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_20 : Ref sig .tc := ⟨.hbm, 97, rfl⟩
abbrev main_v52 : Ref sig .tc := ⟨.hbm, 98, rfl⟩
abbrev main_v53 : Ref sig .tc := ⟨.hbm, 99, rfl⟩
abbrev main_c_21 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_22 : Ref sig .tc := ⟨.hbm, 104, rfl⟩
abbrev main_v57 : Ref sig .tc := ⟨.hbm, 105, rfl⟩
abbrev main_v58 : Ref sig .tc := ⟨.hbm, 106, rfl⟩
abbrev main_c_23 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_24 : Ref sig .tc := ⟨.hbm, 115, rfl⟩
abbrev main_v66 : Ref sig .tc := ⟨.hbm, 116, rfl⟩
abbrev main_v67 : Ref sig .tc := ⟨.hbm, 117, rfl⟩
abbrev main_c_25 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_c_26 : Ref sig .tc := ⟨.hbm, 122, rfl⟩
abbrev main_v71 : Ref sig .tc := ⟨.hbm, 123, rfl⟩
abbrev main_v72 : Ref sig .tc := ⟨.hbm, 124, rfl⟩
abbrev main_c_27 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_28 : Ref sig .tc := ⟨.hbm, 133, rfl⟩
abbrev main_v80 : Ref sig .tc := ⟨.hbm, 134, rfl⟩
abbrev main_v81 : Ref sig .tc := ⟨.hbm, 135, rfl⟩
abbrev main_c_29 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_c_30 : Ref sig .tc := ⟨.hbm, 140, rfl⟩
abbrev main_v85 : Ref sig .tc := ⟨.hbm, 141, rfl⟩
abbrev main_v86 : Ref sig .tc := ⟨.hbm, 142, rfl⟩
abbrev main_c_31 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_32 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_33 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_34 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_35 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_36 : Ref sig .tc := ⟨.hbm, 184, rfl⟩
abbrev main_v123 : Ref sig .tc := ⟨.hbm, 185, rfl⟩
abbrev main_v124 : Ref sig .tc := ⟨.hbm, 186, rfl⟩
abbrev main_cst_37 : Ref sig .tc := ⟨.hbm, 187, rfl⟩
abbrev main_v125 : Ref sig .tc := ⟨.hbm, 188, rfl⟩

abbrev nD : Nat := 1
abbrev τ : Topo := Topo.v7x

variable {F : FTy → Type} [FloatOps F]

class Facts₀ : Prop where
  slices_S1x360x16384x2_S1x360x16384x1_0_0_0_0 : S1x360x16384x2.Slices ![0, 0, 0, 0] S1x360x16384x1
  shapeCasts_S1x360x16384x1_S1x360x16384 : S1x360x16384x1.ShapeCasts S1x360x16384
  slices_S1x360x16384x2_S1x360x16384x1_0_0_0_1 : S1x360x16384x2.Slices ![0, 0, 0, 1] S1x360x16384x1
  bcast_S_S1x360x16384 : S_.BroadcastsInDim S1x360x16384 (![] : Fin 0 → Fin S1x360x16384.rank)
  bcast_S1x360x16384_S1x1x360x16384_0_2_3 : S1x360x16384.BroadcastsInDim S1x1x360x16384 (![0, 2, 3] : Fin 3 → Fin S1x1x360x16384.rank)
  bcast_S1x360x16384_S1x360x16384x1_0_1_2 : S1x360x16384.BroadcastsInDim S1x360x16384x1 (![0, 1, 2] : Fin 3 → Fin S1x360x16384x1.rank)
  concatenates_S1x360x16384x1_S1x360x16384x1_S1x360x16384x2_d3 : Shape.Concatenates [S1x360x16384x1, S1x360x16384x1] S1x360x16384x2 3
  bcast_S_S1x1x360x16384 : S_.BroadcastsInDim S1x1x360x16384 (![] : Fin 0 → Fin S1x1x360x16384.rank)
  bcast_S1x1x360x16384_S1x16x360x16384_0_1_2_3 : S1x1x360x16384.BroadcastsInDim S1x16x360x16384 (![0, 1, 2, 3] : Fin 4 → Fin S1x16x360x16384.rank)
  bcast_S_S1x16x360x16384 : S_.BroadcastsInDim S1x16x360x16384 (![] : Fin 0 → Fin S1x16x360x16384.rank)
  reducesTo_S1x16x360x16384_S1x16x16384_d2 : S1x16x360x16384.ReducesTo [2] S1x16x16384
  h_S_ : 0 < S_.numel
  gather_S1x16x360x736_S1x360x16384x2_S1x16x360x16384_1_23_0_0_23_3_11611_wf : GatherDims.WF S1x16x360x736 S1x360x16384x2 S1x16x360x16384 [1] [2, 3] [0] [2, 3] [0] 3 ![1, 16, 1, 1]

variable [Facts₀]

def gather_S1x16x360x736_S1x360x16384x2_S1x16x360x16384_1_23_0_0_23_3_11611 : GatherDims S1x16x360x736 S1x360x16384x2 S1x16x360x16384 where
  offsetDims := [1]
  collapsedSliceDims := [2, 3]
  operandBatchingDims := [0]
  startIndicesBatchingDims := [0]
  startIndexMap := [2, 3]
  indexVectorDim := 3
  sliceSizes := ![1, 16, 1, 1]
  wf := gather_S1x16x360x736_S1x360x16384x2_S1x16x360x16384_1_23_0_0_23_3_11611_wf

class Facts : Prop extends Facts₀ where

variable [Facts]
-- ==== Proof.LibReadBack.lean ====
/-
  Reading back a buffer that has been stored to several times, each store filling it whole.

    * `readCov_cons_unit_zero`: whatever the earlier stores were, a load of the whole buffer after a store that filled
      it whole reads the value stored LAST — the earlier stores are all overwritten.  This is how an accumulator that
      lives in a scratch buffer, rewritten whole at every step and read back whole at the next, sees its own last
      value.  Any shape, any element type, however the zero offsets are spelt.
-/
import Idealize.ShloMosaic.Lib.Pipeline.Value

namespace Cert.Lib.ReadBack

open Idealize.ShloMosaic

variable {Val : EltTy → Type} {S : Shape} {e : EltTy}

/-- A load of the whole buffer after a store that filled it whole, whatever was stored before: the value last stored. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.Lib.ReadBack
-- ==== Proof.LibChunkSum.lean ====
/-
  A finite sum cut into consecutive chunks of equal length.

  For any commutative additive monoid, a sum over the first `n * c` naturals' worth of indices is the
  sum, over the `n` chunks, of each chunk's own sum of `c` consecutive terms; chunk `a` holds the terms at
  positions `c * a + j`, `j < c`. The second form writes the outer sum as the left-nested chain
  `((0 + s₀) + s₁) + …` that an accumulator started at zero and added to once per chunk computes.
  Only commutativity and associativity of `+` are used, so the laws hold on the extended reals, infinities
  included.
-/
import Mathlib.Algebra.BigOperators.Fin
import Mathlib.Algebra.BigOperators.Group.Finset.Sigma
import Mathlib.Logic.Equiv.Fin.Basic

namespace Cert.Lib.ChunkSum

open Finset

variable {M : Type*} [AddCommMonoid M]

/-- Position `c * a + j` of chunk `a` (of `n` chunks of length `c`) as an index below `n * c`. -/
def pos {n c : ℕ} (a : Fin n) (j : Fin c) : Fin (n * c) := finProdFinEquiv (a, j)

@[simp] theorem pos_val {n c : ℕ} (a : Fin n) (j : Fin c) : (pos a j).val = j.val + c * a.val := rfl

/-- A sum over `n * c` consecutive indices is the sum over the chunks of the chunks' sums. -/
theorem sum_eq_sum_chunks (n c : ℕ) (f : Fin (n * c) → M) :
    ∑ k, f k = ∑ a : Fin n, ∑ j : Fin c, f (pos a j) := by
  rw [← Fintype.sum_prod_type']
  exact (Fintype.sum_equiv finProdFinEquiv _ _ (fun _ => rfl)).symm

/-- An accumulator that starts at `0` and adds the chunk sums `s 0, …, s (n-1)` one after the other ends
    at their sum: the recursion that defines the chain. -/
def chain (s : ℕ → M) : ℕ → M
  | 0 => 0
  | n + 1 => chain s n + s n

theorem chain_eq_sum (s : ℕ → M) (n : ℕ) : chain s n = ∑ a : Fin n, s a.val := by
  induction n with
  | zero => simp [chain]
  | succ n ih => rw [chain, ih, Fin.sum_univ_castSucc]; rfl

/-- The whole sum is the accumulator's chain over the chunks' sums. -/
theorem sum_eq_chain (n c : ℕ) (f : Fin (n * c) → M) (s : ℕ → M)
    (hs : ∀ a : Fin n, s a.val = ∑ j : Fin c, f (pos a j)) :
    ∑ k, f k = chain s n := by
  rw [chain_eq_sum, sum_eq_sum_chunks]
  exact Fintype.sum_congr _ _ (fun a => (hs a).symm)

end Cert.Lib.ChunkSum
-- ==== Proof.BodyRun.lean ====
/-
  What one grid point's body leaves in the output block, as a function of the two input blocks.

  The body keeps an accumulator in a scratch buffer: it stores zero, then nine times loads the accumulator whole,
  adds to it the sum over 40 consecutive views of  sampled · weight · 1000  and stores it back whole; finally it
  copies the accumulator to the output block. Every store fills the scratch buffer, so every load reads the value
  stored last, and the output block is the ninefold composition of one step, started from zero. The nine steps are
  spelt by differently cut payloads, all of them the same function of the 40-view slab of each input and of the
  accumulator. Read at a channel c and a pixel q of the block, over the extended reals, the result is the
  accumulator's chain  ((0 + s₀) + s₁) + … + s₈  of the nine slab sums
  s_a = Σ_{j<40} sampled[c, 40a+j, q] · weight[0, 40a+j, q] · 1000.
-/
import proofs.«175098_j27350351741231_2_alg».proof.Proof.Gen.KernelIdeal.Frame
import proofs.«175098_j27350351741231_2_alg».proof.Proof.LibReadBack
import proofs.«175098_j27350351741231_2_alg».proof.Proof.LibChunkSum
import Idealize.ShloMosaic.Lib.Pipeline.Value
import Idealize.ShloMosaic.Lib.ValueIdx
import Idealize.ShloMosaic.PureOps.Ideal.Laws

set_option maxRecDepth 16384

noncomputable section

namespace Cert.KernelIdeal.BodyRun

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- One step: the accumulator plus the sum over the slab's 40 views of  sampled · weight · 1000. -/
def step (a : Vec F S16x40x512 .f32) (b : Vec F S1x40x512 .f32) (acc : Vec F S16x512 .f32) : FVec F S16x512 .f32 :=
  k0_pay2 a b acc

/-- A slab of 40 views from view `o` lies inside the sampled block's 360 views. -/
theorem inb0 (o : Nat) (h : o + 40 ≤ 360) :
    ∀ a, (![0, o, 0] : Fin 3 → Nat) a + S16x40x512.size a ≤ S16x360x512.size a := fun a =>
  match a with
  | ⟨0, _⟩ => by show 0 + 16 ≤ 16; omega
  | ⟨1, _⟩ => by show o + 40 ≤ 360; exact h
  | ⟨2, _⟩ => by show 0 + 512 ≤ 512; omega

/-- The same inside the weight block. -/
theorem inb1 (o : Nat) (h : o + 40 ≤ 360) :
    ∀ a, (![0, o, 0] : Fin 3 → Nat) a + S1x40x512.size a ≤ S1x360x512.size a := fun a =>
  match a with
  | ⟨0, _⟩ => by show 0 + 1 ≤ 1; omega
  | ⟨1, _⟩ => by show o + 40 ≤ 360; exact h
  | ⟨2, _⟩ => by show 0 + 512 ≤ 512; omega

/-- The slab of 40 views starting at view `o` of the sampled block. -/
def slab0 (x0 : Vec F S16x360x512 .f32) (o : Nat) (h : o + 40 ≤ 360) : Vec F S16x40x512 .f32 :=
  View.ld x0 (Rect.unit (s := S16x360x512) ![0, o, 0] S16x40x512.size (inb0 o h))

/-- The slab of 40 views starting at view `o` of the weight block. -/
def slab1 (x1 : Vec F S1x360x512 .f32) (o : Nat) (h : o + 40 ≤ 360) : Vec F S1x40x512 .f32 :=
  View.ld x1 (Rect.unit (s := S1x360x512) ![0, o, 0] S1x40x512.size (inb1 o h))

/-- The accumulator after the first `n` steps, from zero. -/
def accAfter (x0 : Vec F S16x360x512 .f32) (x1 : Vec F S1x360x512 .f32) : (n : Nat) → n ≤ 9 → FVec F S16x512 .f32
  | 0, _ => k0_pay1
  | n + 1, h => step (slab0 x0 (40 * n) (by omega)) (slab1 x1 (40 * n) (by omega)) (accAfter x0 x1 n (by omega))

theorem hz2 : (![0, 0] : Fin S16x512.rank → Nat) = fun _ => 0 := by
  funext a; match a with | ⟨0, _⟩ => rfl | ⟨1, _⟩ => rfl

/-- The output block after the body: the accumulator after all nine steps. -/
theorem out_eq (c : Dev nD) (i : grid0.Coords) (arg1 : Memref sig .tc .vmem S16x360x512 .f32) (harg1 : arg1.IsWhole) (arg2 : Memref sig .tc .vmem S1x360x512 .f32) (harg2 : arg2.IsWhole) (arg3 : Memref sig .tc .vmem S16x512 .f32) (harg3 : arg3.IsWhole) (arg4 : Memref sig .tc .vmem S16x512 .f32) (harg4 : arg4.IsWhole)
    (x0 : Vec F S16x360x512 .f32) (x1 : Vec F S1x360x512 .f32) :
    out0_A_2 (F := F) c i arg1 harg1 arg2 harg2 arg3 harg3 arg4 harg4 x0 x1 = accAfter x0 x1 9 (Nat.le_refl 9) := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero hz2]
  simp only [Cert.Lib.ReadBack.readCov_cons_unit_zero (S := S16x512) _ hz2, View.readCov_unit_zero (S := S16x512) _ hz2,
    View.readAt_eq_ld, harg1.read_unread, harg2.read_unread]
  rfl

/-! ## Read at a channel and a pixel, over the extended reals -/

/-- The word of the factor 1000. -/
abbrev w1000 : EReal := Ideal.ofBits .f32 0x447A0000#32

/-- The starting accumulator is zero everywhere. -/
theorem zero_apply (j : S16x512.Idx) : k0_pay1 (F := Ideal) j = 0 := by
  unfold k0_pay1
  rw [shapeCast_self]
  exact Ideal.ofBits_zero_f32

/-- One step read at (c, q): the accumulator there plus the slab's sum. -/
theorem step_apply (a : Vec Ideal S16x40x512 .f32) (b : Vec Ideal S1x40x512 .f32) (acc : Vec Ideal S16x512 .f32)
    (c : Fin 16) (q : Fin 512) :
    step (F := Ideal) a b acc (ix2 c q)
      = acc (ix2 c q) + ∑ j : Fin 40, a (ix3 c j q) * b (ix3 0 j q) * w1000 := by
  unfold step k0_pay2
  simp only [shapeCast_self]
  rw [addf_apply]
  refine congrArg (_ + ·) ?_
  refine (Ideal.multiReduction_add_single _ 0x00000000#32 reduces_S16x40x512_S16x512 (.inl rfl) rfl (ix2 c q)).trans ?_
  show ∑ j : Fin 40, _ = ∑ j : Fin 40, _
  refine Finset.sum_congr rfl fun (j : Fin 40) _ => ?_
  have hl : reduces_S16x40x512_S16x512.lift (ix2 c q) j = ix3 c j q :=
    funext fun d => Fin.ext (by match d with | ⟨0, _⟩ => rfl | ⟨1, _⟩ => rfl | ⟨2, _⟩ => rfl)
  have hb : broadcastTo S16x40x512 b broadcasts_S1x40x512_S16x40x512 (ix3 c j q) = b (ix3 0 j q) :=
    broadcastTo_apply b broadcasts_S1x40x512_S16x40x512 (ix3 c j q) (ix3 0 j q) (fun d => by
      match d with
      | ⟨0, _⟩ => show 0 = if (1 : Nat) = 1 then 0 else c.val; rw [if_pos rfl]
      | ⟨1, _⟩ => show j.val = if (40 : Nat) = 1 then 0 else j.val; rw [if_neg (by decide)]
      | ⟨2, _⟩ => show q.val = if (512 : Nat) = 1 then 0 else q.val; rw [if_neg (by decide)])
  rw [hl, mulf_apply, mulf_apply, broadcast_apply, hb]
  rfl

/-- View `k`'s term of channel c and pixel q of the block (zero past the 360 views, so that it is a function of a
    natural number). -/
def term (x0 : Vec Ideal S16x360x512 .f32) (x1 : Vec Ideal S1x360x512 .f32) (c : Fin 16) (q : Fin 512) (k : Nat) : EReal :=
  if h : k < 360 then x0 (ix3 c ⟨k, h⟩ q) * x1 (ix3 0 ⟨k, h⟩ q) * w1000 else 0

/-- A slab of the sampled block read at (c, j, q): the block at view o + j. -/
theorem slab0_apply (x0 : Vec Ideal S16x360x512 .f32) (o : Nat) (h : o + 40 ≤ 360) (c : Fin 16) (j : Fin 40) (q : Fin 512) :
    slab0 x0 o h (ix3 c j q) = x0 (ix3 c ⟨o + j.val, by have := j.isLt; omega⟩ q) := by
  unfold slab0
  show x0 _ = x0 _
  refine congrArg x0 (funext fun d => Fin.ext ?_)
  match d with
  | ⟨0, _⟩ => show 0 + 1 * c.val = c.val; omega
  | ⟨1, _⟩ => show o + 1 * j.val = o + j.val; omega
  | ⟨2, _⟩ => show 0 + 1 * q.val = q.val; omega

/-- A slab of the weight block read at (0, j, q). -/
theorem slab1_apply (x1 : Vec Ideal S1x360x512 .f32) (o : Nat) (h : o + 40 ≤ 360) (j : Fin 40) (q : Fin 512) :
    slab1 x1 o h (ix3 0 j q) = x1 (ix3 0 ⟨o + j.val, by have := j.isLt; omega⟩ q) := by
  unfold slab1
  show x1 _ = x1 _
  refine congrArg x1 (funext fun d => Fin.ext ?_)
  match d with
  | ⟨0, _⟩ => show 0 + 1 * 0 = 0; omega
  | ⟨1, _⟩ => show o + 1 * j.val = o + j.val; omega
  | ⟨2, _⟩ => show 0 + 1 * q.val = q.val; omega

/-- After `n` steps the accumulator at (c, q) is the chain of the first `n` slab sums. -/
theorem accAfter_apply (x0 : Vec Ideal S16x360x512 .f32) (x1 : Vec Ideal S1x360x512 .f32) (c : Fin 16) (q : Fin 512) :
    ∀ (n : Nat) (h : n ≤ 9), accAfter x0 x1 n h (ix2 c q)
      = Cert.Lib.ChunkSum.chain (fun a => ∑ j : Fin 40, term x0 x1 c q (40 * a + j.val)) n
  | 0, _ => by
    show k0_pay1 (F := Ideal) (ix2 c q) = 0
    exact zero_apply _
  | n + 1, h => by
    show step (F := Ideal) _ _ (accAfter x0 x1 n (by omega)) (ix2 c q) = _
    rw [step_apply, accAfter_apply x0 x1 c q n (by omega)]
    show _ = Cert.Lib.ChunkSum.chain _ n + _
    refine congrArg (_ + ·) (Finset.sum_congr rfl fun j _ => ?_)
    rw [slab0_apply, slab1_apply]
    unfold term
    rw [dif_pos (by have := j.isLt; omega)]

/-- The whole body at (c, q): the sum over all 360 views. -/
theorem body_apply (x0 : Vec Ideal S16x360x512 .f32) (x1 : Vec Ideal S1x360x512 .f32) (c : Fin 16) (q : Fin 512) :
    accAfter x0 x1 9 (Nat.le_refl 9) (ix2 c q) = ∑ k : Fin 360, x0 (ix3 c k q) * x1 (ix3 0 k q) * w1000 := by
  rw [accAfter_apply]
  refine (Cert.Lib.ChunkSum.sum_eq_chain 9 40 (fun k : Fin (9 * 40) => x0 (ix3 c ⟨k.val, k.isLt⟩ q) * x1 (ix3 0 ⟨k.val, k.isLt⟩ q) * w1000) _ (fun a => ?_)).symm
  refine Finset.sum_congr rfl fun j _ => ?_
  unfold term
  have hlt : 40 * a.val + j.val < 360 := by have := a.isLt; have := j.isLt; omega
  rw [dif_pos hlt]
  have hv : (Cert.Lib.ChunkSum.pos a j).val = 40 * a.val + j.val := by rw [Cert.Lib.ChunkSum.pos_val]; omega
  have hp : (⟨40 * a.val + j.val, hlt⟩ : Fin 360) = ⟨(Cert.Lib.ChunkSum.pos a j).val, (Cert.Lib.ChunkSum.pos a j).isLt⟩ := Fin.ext hv.symm
  rw [hp]

end Cert.KernelIdeal.BodyRun

end
-- ==== Proof.RegionImage.lean ====
/-
  The array the region leaves: every block is the body's result of the input blocks at the same pixels, and the 32
  blocks of 512 pixels tile the [16, 16384] array, so the whole array is one function of the two arrays the region
  reads: entry (c, p) is the sum over the 360 views k of  A0[c, k, p] · A1[0, k, p] · 1000.

  Grid point t reads the block of pixels 512·t … 512·t + 511 (all channels, all views) of each input and writes back
  the block of the same pixels of the output.
-/
import proofs.«175098_j27350351741231_2_alg».proof.Proof.BodyRun
import Idealize.ShloMosaic.Lib.Pipeline.Value

set_option maxRecDepth 16384

noncomputable section

namespace Cert.KernelIdeal.RegionImage

open Cert.KernelIdeal Cert.KernelIdeal.Gen Cert.KernelIdeal.BodyRun
open Idealize.ShloMosaic Idealize.ShloMosaic.TcCoe Idealize.ShloMosaic.ValueIdx
open Idealize.SL Idealize.SL.Sem

variable (m : (ℓ : Loc nD τ sig) → Buf (Elt Ideal) ℓ)

/-- Entry (c, p) of the array the region leaves, from the two arrays it reads. -/
def entry (A0 : S16x360x16384.Idx → EReal) (A1 : S1x360x16384.Idx → EReal) (c : Fin 16) (p : Fin 16384) : EReal :=
  ∑ k : Fin 360, A0 (ix3 c k p) * A1 (ix3 0 k p) * w1000

/-- The array the region leaves. -/
def G (A0 : S16x360x16384.Idx → EReal) (A1 : S1x360x16384.Idx → EReal) : S16x16384.Idx → EReal :=
  fun i => entry A0 A1 ⟨(i 0).val, (i 0).isLt⟩ ⟨(i 1).val, (i 1).isLt⟩

/-- The body's result of blocks that are the pixels 512·b … of the two arrays is that block of `G`. -/
theorem body_block (x0 : Vec Ideal S16x360x512 .f32) (x1 : Vec Ideal S1x360x512 .f32)
    (A0 : S16x360x16384.Idx → EReal) (A1 : S1x360x16384.Idx → EReal) (b : Nat) (hb : b < 32)
    (h0 : ∀ (c : Fin 16) (k : Fin 360) (q : Fin 512), x0 (ix3 c k q) = A0 (ix3 c k ⟨b * 512 + q.val, by have := q.isLt; omega⟩))
    (h1 : ∀ (k : Fin 360) (q : Fin 512), x1 (ix3 0 k q) = A1 (ix3 0 k ⟨b * 512 + q.val, by have := q.isLt; omega⟩))
    (c : Fin 16) (q : Fin 512) :
    accAfter x0 x1 9 (Nat.le_refl 9) (ix2 c q) = entry A0 A1 c ⟨b * 512 + q.val, by have := q.isLt; omega⟩ := by
  rw [body_apply]
  unfold entry
  refine Finset.sum_congr rfl fun (k : Fin 360) _ => ?_
  rw [h0, h1]

/-- The grid has 32 points. -/
theorem N_eq : cfg0.N = 32 := N_0

/-- The printed index maps over the grid: every window's block index is 0 on the axes it keeps whole and the point's
    number on the pixel axis. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- The sampled block at point t, read at (c, k, q): the array at pixel 512·t + q. -/
theorem iblk0_apply (c : Dev nD) (t : Fin cfg0.N) (cc : Fin 16) (k : Fin 360) (q : Fin 512) :
    iblk m c 0 t (ix3 cc k q)
      = V m c main_v121 (ix3 cc k ⟨t.val * 512 + q.val, by have := q.isLt; have := t.isLt; have := N_eq; omega⟩) := by
  obtain ⟨e0, e1, e2, -⟩ := idx_facts t
  unfold iblk
  show V m c main_v121 (((cfg0.win 0).blk t).view.emb (ix3 cc k q)) = _
  refine congrArg (V m c main_v121) (funext fun a => Fin.ext ?_)
  match a with
  | ⟨0, _⟩ => show win0_0.index t (0 : Fin 3) * 16 + 1 * cc.val = cc.val; omega
  | ⟨1, _⟩ => show win0_0.index t (1 : Fin 3) * 360 + 1 * k.val = k.val; omega
  | ⟨2, _⟩ => show win0_0.index t (2 : Fin 3) * 512 + 1 * q.val = t.val * 512 + q.val; omega

/-- The weight block at point t, read at (0, k, q). -/
theorem iblk1_apply (c : Dev nD) (t : Fin cfg0.N) (k : Fin 360) (q : Fin 512) :
    iblk m c 1 t (ix3 0 k q)
      = V m c main_v122 (ix3 0 k ⟨t.val * 512 + q.val, by have := q.isLt; have := t.isLt; have := N_eq; omega⟩) := by
  obtain ⟨-, -, -, e0, e1, e2, -⟩ := idx_facts t
  unfold iblk
  show V m c main_v122 (((cfg0.win 1).blk t).view.emb (ix3 0 k q)) = _
  refine congrArg (V m c main_v122) (funext fun a => Fin.ext ?_)
  match a with
  | ⟨0, _⟩ => show win0_1.index t (0 : Fin 3) * 1 + 1 * 0 = 0; omega
  | ⟨1, _⟩ => show win0_1.index t (1 : Fin 3) * 360 + 1 * k.val = k.val; omega
  | ⟨2, _⟩ => show win0_1.index t (2 : Fin 3) * 512 + 1 * q.val = t.val * 512 + q.val; omega

/-- What point t writes back is block t of `G` of the two arrays as the region finds them. -/
theorem flushed_eq (c : Dev nD) (t : Fin cfg0.N) :
    (dats m 0 c).flushed 2 t = ((cfg0.win 2).blk t).view.read (Elt Ideal) (G (V m c main_v121) (V m c main_v122)) := by
  show (cfg0.win 2).cut (grid0.coords t) ((dats m 0 c).after 2 t) = _
  rw [after0_2]
  unfold outsAt0
  rw [out_eq]
  obtain ⟨-, -, -, -, -, -, e0, e1⟩ := idx_facts t
  have ht : t.val < 32 := by have := t.isLt; have := N_eq; omega
  funext y
  show accAfter (iblk m c 0 t) (iblk m c 1 t) 9 (Nat.le_refl 9) y
    = G (V m c main_v121) (V m c main_v122) (((cfg0.win 2).blk t).view.emb y)
  have hy : y = ix2 (⟨(y 0).val, (y 0).isLt⟩ : Fin 16) (⟨(y 1).val, (y 1).isLt⟩ : Fin 512) :=
    funext fun a => Fin.ext (by match a with | ⟨0, _⟩ => rfl | ⟨1, _⟩ => rfl)
  refine (congrArg (accAfter (iblk m c 0 t) (iblk m c 1 t) 9 (Nat.le_refl 9)) hy).trans ?_
  refine (body_block (iblk m c 0 t) (iblk m c 1 t) (V m c main_v121) (V m c main_v122) t.val ht
    (fun cc k q => iblk0_apply m c t cc k q) (fun k q => iblk1_apply m c t k q) _ _).trans ?_
  unfold G
  refine congrArg₂ (entry (V m c main_v121) (V m c main_v122)) (Fin.ext ?_) (Fin.ext ?_)
  · show (y 0).val = win0_2.index t (0 : Fin 2) * 16 + 1 * (y 0).val; omega
  · show t.val * 512 + (y 1).val = win0_2.index t (1 : Fin 2) * 512 + 1 * (y 1).val; omega

/-- An index of the array is in point t's block iff each coordinate is in the block's range on its axis. -/
theorem mem_blk (t : Fin cfg0.N) (i : S16x16384.Idx) :
    i ∈ ((cfg0.win 2).blk t).view.set ↔ ∀ a : Fin 2, win0_2.index t a * S16x512.size a ≤ (i a).val
      ∧ (i a).val < win0_2.index t a * S16x512.size a + S16x512.size a := by
  show i ∈ ((View.whole main_v123).slice (win0_2.rect t)).set ↔ _
  rw [View.set_slice_whole, Rect.mem_set_unit]
  exact Iff.rfl

/-- Every entry of the array lies in the block of the point that owns its 512 pixels. -/
theorem cover (i : S16x16384.Idx) :
    ∃ t : Fin cfg0.N, (cfg0.win 2).flush t = true ∧ i ∈ ((cfg0.win 2).blk t).view.set := by
  have hi0 : (i 0).val < 16 := (i 0).isLt
  have hi1 : (i 1).val < 16384 := (i 1).isLt
  have hN : cfg0.N = 32 := N_eq
  let t : Fin cfg0.N := ⟨(i 1).val / 512, by omega⟩
  obtain ⟨-, -, -, -, -, -, e0, e1⟩ := idx_facts t
  have e1' : win0_2.index t (1 : Fin 2) = (i 1).val / 512 := e1
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 512 ≤ (i 1).val ∧ (i 1).val < win0_2.index t (1 : Fin 2) * 512 + 512; omega

/-- The array after the run. -/
theorem final (c : Dev nD) : (dats m 0 c).arrAt 2 cfg0.N = G (V m c main_v121) (V m c main_v122) :=
  (dats m 0 c).arrAt_eq_of_cover 2 (G (V m c main_v121) (V m c main_v122)) (fun t _ => flushed_eq m c t) cover

end Cert.KernelIdeal.RegionImage

end
-- ==== Proof.RegionArrays.lean ====
/-
  The two arrays the kernel's region reads, as the host lines before it leave them.

  The host lines before the region sample the sinogram bilinearly at the grid's coordinates and then drop a unit batch
  axis twice: the sampled array [1,16,360,16384] is handed to the region as [16,360,16384], and the weights
  [1,1,360,16384] as [1,360,16384]. So the second array is the reshape of the weights argument, and the first is the
  reshape of one term in the sinogram and grid arguments: the composition of the sampling's operations, which is found
  here by reading each line's result as its operation of the earlier lines' results (it is the witness of
  `sampledFound`) and is compared with the reference's own sampling elsewhere. The four index arrays of the gathers
  are joins of two arrays; a join is read as a plain function of its two pieces so that the pieces are read in turn.
-/
import proofs.«175098_j27350351741231_2_alg».proof.Proof.Gen.KernelIdeal.Frame
import Idealize.ShloMosaic.Lib.StableHlo.Run

set_option maxRecDepth 16384

noncomputable section

namespace Cert.KernelIdeal.RegionArrays

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
/-- The weights as the region finds them: the argument with its unit batch axis dropped. -/
theorem V_weights (c : Dev nD) :
    V m c main_v122 = shapeCast _ (m ((c.tc : Thread nD τ).loc main_arg2)) shapeCasts_S1x1x360x16384_S1x360x16384 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Two arrays joined along an axis, as a plain function of the two arrays (the list of shaped arrays that a join takes
    hides them from rewriting). -/
@[reducible] def joinPair {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

theorem concatenate_pair_eq {α : Type} (t : Shape) (a : Fin t.rank) (s1 s2 : Shape) (h : Shape.Concatenates [s1, s2] t a)
    (p : s1.Idx → α) (q : s2.Idx → α) : concatenate t a [⟨s1, p⟩, ⟨s2, q⟩] h = joinPair t a s1 s2 h p q := rfl

set_option maxHeartbeats 80000000 in
/-- The sampled array [1,16,360,16384] that the host lines compute from the sinogram and grid arguments — the composed
    term of the sampling's operations, found by reading the lines' results one after the other — together with the fact
    that the region's first array is that term with its unit batch axis dropped. -/
def sampledFound (c : Dev nD) :
    { T : (⟨S1x16x360x16384, .f32⟩ : BufTy).Contents (Elt F) //
      V m c main_v121 = shapeCast _ T shapeCasts_S1x16x360x16384_S16x360x16384 } := by
  refine ⟨?T, ?h⟩
  case h =>
    dsimp only [V, V0]
    simp only [hostOps0, hostOps0_1, hostOps0_2, hostOps0_3, hostOps0_4, hostOps0_5, hostOps0_6, hostOps0_7, hostOps0_8,
      List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair_eq]
    exact rfl

end Cert.KernelIdeal.RegionArrays

end
-- ==== Proof.RegionStage.lean ====
/-
  The sampled array the kernel's host lines compute is the reference's sampled stage of the same two arguments.

  The kernel's host lines before its region are, operation for operation, the reference's own bilinear sampling
  (the coordinates unnormalized, floored and clipped, four gathers, the bilinear blend): the composed term found on the
  kernel's side and the reference's stage unfold to the same operations of the same arguments.
-/
import proofs.«175098_j27350351741231_2_alg».proof.Proof.RegionArrays
import proofs.«175098_j27350351741231_2_alg».proof.Proof.Gen.ReferenceIdeal.Read

set_option maxRecDepth 16384

noncomputable section

namespace Cert.KernelIdeal.RegionArrays

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 80000000 in
/-- The term found on the kernel's side is the reference's sampled stage. -/
theorem sampledFound_eq (c : Dev nD) :
    (sampledFound m c).1 = Cert.ReferenceIdeal.Read.val_main_v120 (F := F)
      (m ((c.tc : Thread nD τ).loc main_arg0)) (m ((c.tc : Thread nD τ).loc main_arg1)) := by
  unfold sampledFound
  rfl

/-- The sampled array as the region finds it: the reference's sampled stage of the same two arguments, with its unit
    batch axis dropped. -/
theorem V_sampled (c : Dev nD) :
    V m c main_v121 = shapeCast _ (Cert.ReferenceIdeal.Read.val_main_v120 (F := F)
      (m ((c.tc : Thread nD τ).loc main_arg0)) (m ((c.tc : Thread nD τ).loc main_arg1))) shapeCasts_S1x16x360x16384_S16x360x16384 :=
  (sampledFound m c).2.trans (congrArg (fun T => shapeCast _ T shapeCasts_S1x16x360x16384_S16x360x16384) (sampledFound_eq m c))

end Cert.KernelIdeal.RegionArrays

end
-- ==== Proof.BackProjection.lean ====
/-
  The back-projected image, as one function of the sampled array and the weights.

  Pixel p of channel c is the sum over the 360 views k of  sampled[0, c, k, p] · weight[0, 0, k, p] · 1000,
  over the extended reals; the factor 1000 is kept as its f32 word, the same word in both programs.
-/
import Idealize.ShloMosaic.PureOps.Ideal
import Idealize.ShloMosaic.Lib.ValueIdx

noncomputable section

namespace Cert.BackProjection

open Idealize.ShloMosaic Idealize.ShloMosaic.ValueIdx

/-- The sampled array: batch 1, 16 channels, 360 views, 16384 pixels. -/
abbrev SSampled : Shape := ⟨4, ![1, 16, 360, 16384]⟩
/-- The weights: batch 1, one channel, 360 views, 16384 pixels. -/
abbrev SWeights : Shape := ⟨4, ![1, 1, 360, 16384]⟩
/-- The image: batch 1, 16 channels, 16384 pixels. -/
abbrev SImage : Shape := ⟨3, ![1, 16, 16384]⟩

/-- The factor 1000, as its f32 word read over the extended reals. -/
abbrev w1000 : EReal := Ideal.ofBits .f32 0x447A0000#32

/-- Pixel p of channel c: the weighted sum over the views. -/
def pixel (S : SSampled.Idx → EReal) (Q : SWeights.Idx → EReal) (c : Fin 16) (p : Fin 16384) : EReal :=
  ∑ k : Fin 360, S (ix4 0 c k p) * Q (ix4 0 0 k p) * w1000

/-- The whole image. -/
def image (S : SSampled.Idx → EReal) (Q : SWeights.Idx → EReal) : SImage.Idx → EReal :=
  fun i => pixel S Q ⟨(i 1).val, (i 1).isLt⟩ ⟨(i 2).val, (i 2).isLt⟩

/-- An index of the image by its channel and pixel coordinates (the batch coordinate is 0). -/
theorem idx_eq (i : SImage.Idx) :
    i = ix3 (0 : Fin 1) (⟨(i 1).val, (i 1).isLt⟩ : Fin 16) (⟨(i 2).val, (i 2).isLt⟩ : Fin 16384) :=
  funext fun a => Fin.ext (by
    match a with
    | ⟨0, _⟩ => have h : (i 0).val < 1 := (i 0).isLt; show (i 0).val = 0; omega
    | ⟨1, _⟩ => rfl
    | ⟨2, _⟩ => rfl)

/-- An array that holds pixel (c, p) at every (0, c, p) is the image. -/
theorem eq_image (f : SImage.Idx → EReal) (S : SSampled.Idx → EReal) (Q : SWeights.Idx → EReal)
    (h : ∀ (c : Fin 16) (p : Fin 16384), f (ix3 0 c p) = pixel S Q c p) : f = image S Q :=
  funext fun i => (congrArg f (idx_eq i)).trans (h _ _)

end Cert.BackProjection

end
-- ==== Proof.KernelValue.lean ====
/-
  The idealized kernel's run, read: its result is the back-projected image of the reference's sampled stage of the
  kernel's own first two arguments, and of its third argument, the weights.

  The region leaves the array  G[c, p] = Σ_k A0[c, k, p] · A1[0, k, p] · 1000  of the two arrays it reads; those are
  the sampled stage and the weights with their unit batch axis dropped, so G[c, p] is pixel (c, p) of the image; the one
  host line after the region puts the batch axis back.
-/
import proofs.«175098_j27350351741231_2_alg».proof.Proof.RegionImage
import proofs.«175098_j27350351741231_2_alg».proof.Proof.RegionArrays
import proofs.«175098_j27350351741231_2_alg».proof.Proof.RegionStage
import proofs.«175098_j27350351741231_2_alg».proof.Proof.BackProjection
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Cert.KernelIdeal.BodyRun Cert.KernelIdeal.RegionImage Cert.KernelIdeal.RegionArrays
open Cert.BackProjection
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The reference's sampled stage of the kernel's own sinogram and grid arguments. -/
abbrev sampled (c : Dev nD) : SSampled.Idx → EReal :=
  Cert.ReferenceIdeal.Read.val_main_v120 (F := Ideal) (m ((c.tc : Thread nD τ).loc main_arg0)) (m ((c.tc : Thread nD τ).loc main_arg1))

/-- The kernel's weights argument. -/
abbrev weights (c : Dev nD) : SWeights.Idx → EReal := m ((c.tc : Thread nD τ).loc main_arg2)

/-- The first array the region reads, at (c, k, p): the sampled stage at (0, c, k, p). -/
theorem sampled_apply (c : Dev nD) (cc : Fin 16) (k : Fin 360) (p : Fin 16384) :
    V m c main_v121 (ix3 cc k p) = sampled m c (ix4 0 cc k p) :=
  (congrFun (V_sampled m c) (ix3 cc k p)).trans
    (shapeCast_apply _ shapeCasts_S1x16x360x16384_S16x360x16384 (ix3 cc k p) (ix4 0 cc k p) (by
      rewrite [Shape.rowMajor_val_four, Shape.rowMajor_val_three]
      show ((0 * 16 + cc.val) * 360 + k.val) * 16384 + p.val = (cc.val * 360 + k.val) * 16384 + p.val
      omega))

/-- The second array the region reads, at (0, k, p): the weights at (0, 0, k, p). -/
theorem weights_apply (c : Dev nD) (k : Fin 360) (p : Fin 16384) :
    V m c main_v122 (ix3 0 k p) = weights m c (ix4 0 0 k p) :=
  (congrFun (V_weights m c) (ix3 0 k p)).trans
    (shapeCast_apply _ shapeCasts_S1x1x360x16384_S1x360x16384 (ix3 0 k p) (ix4 0 0 k p) (by
      rewrite [Shape.rowMajor_val_four, Shape.rowMajor_val_three]
      show ((0 * 1 + 0) * 360 + k.val) * 16384 + p.val = (0 * 360 + k.val) * 16384 + p.val
      omega))

/-- Entry (c, p) of the array the region leaves is pixel (c, p) of the image. -/
theorem entry_eq (c : Dev nD) (cc : Fin 16) (p : Fin 16384) :
    entry (V m c main_v121) (V m c main_v122) cc p = pixel (sampled m c) (weights m c) cc p := by
  unfold entry pixel
  refine Finset.sum_congr rfl fun (k : Fin 360) _ => ?_
  rw [sampled_apply, weights_apply]

/-- What the line after the region leaves in the result buffer: the image. -/
theorem result_eq (c : Dev nD) :
    Pipeline.afterTail₀ cfgs (dats m) 0 (V0 m) [hostOps1] c main_v124 = image (sampled m c) (weights m c) := by
  have e : Pipeline.afterTail₀ cfgs (dats m) 0 (V0 m) [hostOps1] c main_v124
      = broadcastInDim S1x16x16384 ![1, 2] bcast_S16x16384_S1x16x16384_1_2 (G (V m c main_v121) (V m c main_v122)) := by
    unfold Pipeline.afterTail₀
    show StableHlo.after hostOps1 _ (Proc.devRef .tc main_v124) = _
    after_results
    exact congrArg _ ((Pipeline.withArrays_arr spec0 launch0.win.arr_inj c _ _ 2).trans (final m c))
  refine eq_image _ _ _ fun cc p => ?_
  rw [e]
  refine (broadcastInDim_apply _ bcast_S16x16384_S1x16x16384_1_2 _ (ix3 0 cc p) (ix2 cc p) (fun a => by
    match a with
    | ⟨0, _⟩ => show cc.val = if (16 : Nat) = 1 then 0 else cc.val; rw [if_neg (by decide)]
    | ⟨1, _⟩ => show p.val = if (16384 : Nat) = 1 then 0 else p.val; rw [if_neg (by decide)])).trans ?_
  exact entry_eq m c cc p

/-- The idealized kernel's run: the result buffer ends at the image, the arguments unchanged. -/
theorem run : θ_run defs (onTc (τ := τ) (main (F := Ideal))) ⟨m, fun _ => 0, ρ⟩ fun r => ∀ c : Dev nD,
      r.2.mem ((c.tc : Thread nD τ).loc main_v124) = image (sampled m c) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v124 (Pipeline.mem_restRefs_of main_v124 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefStage.lean ====
/-
  The reference's result is the back-projected image of its own sampled stage and the weights argument.

  After the sampling, the reference multiplies the sampled array by the weights broadcast over the 16 channels and by
  the constant 1000, and sums over the view axis from the initial value 0; read at (0, c, p) that is
  0 + Σ_k sampled[0,c,k,p] · weight[0,0,k,p] · 1000.
-/
import proofs.«175098_j27350351741231_2_alg».proof.Proof.Gen.ReferenceIdeal.Read
import proofs.«175098_j27350351741231_2_alg».proof.Proof.BackProjection
import Idealize.ShloMosaic.PureOps.Ideal.Laws

noncomputable section

namespace Cert.ReferenceIdeal.RefStage

open Cert.ReferenceIdeal Cert.ReferenceIdeal.Gen Cert.ReferenceIdeal.Read Cert.BackProjection
open Idealize.ShloMosaic Idealize.ShloMosaic.ValueIdx

/-- The reduction's operand index at view k of result index (0, c, p), by coordinates. -/
theorem idx_view (c : Fin 16) (p : Fin 16384) (k : Fin 360) :
    idx_main_v125 (ix3 0 c p) k = ix4 0 c k p :=
  funext fun a => Fin.ext (by
    match a with
    | ⟨0, _⟩ => rfl
    | ⟨1, _⟩ => rfl
    | ⟨2, _⟩ => rfl
    | ⟨3, _⟩ => rfl)

/-- The weights broadcast over the channels, read at (0, c, k, p): the weight at (0, 0, k, p). -/
theorem idx_weight (c : Fin 16) (k : Fin 360) (p : Fin 16384) :
    idx_main_v121 (ix4 0 c k p) = ix4 0 0 k p :=
  funext fun a => Fin.ext (by
    match a with
    | ⟨0, _⟩ => rfl
    | ⟨1, _⟩ => rfl
    | ⟨2, _⟩ => rfl
    | ⟨3, _⟩ => rfl)

/-- The reference's result as the image of its sampled stage. -/
theorem result_eq (x0 : (⟨S1x16x360x736, .f32⟩ : BufTy).Contents (Elt Ideal)) (x1 : (⟨S1x360x16384x2, .f32⟩ : BufTy).Contents (Elt Ideal))
    (x2 : (⟨S1x1x360x16384, .f32⟩ : BufTy).Contents (Elt Ideal)) :
    val_main_v125 (F := Ideal) x0 x1 x2 = image (val_main_v120 (F := Ideal) x0 x1) x2 := by
  refine eq_image _ _ _ fun c p => ?_
  rw [val_main_v125_apply]
  have h0 : val_main_cst_37 (F := Ideal) (Shape.Idx.first h_S_) = 0 :=
    (val_main_cst_37_apply _).trans Ideal.ofBits_zero_f32
  rw [h0, zero_add]
  unfold pixel
  refine Finset.sum_congr rfl fun (k : Fin 360) _ => ?_
  rw [idx_view, val_main_v124_apply, val_main_v122_apply, val_main_v123_apply, val_main_cst_36_apply, val_main_v121_apply,
    idx_weight]
  rfl

end Cert.ReferenceIdeal.RefStage

end
-- ==== Proof.lean ====
/-
  The certificate's claims, assembled.

  Both programs back-project a sinogram: they sample it bilinearly at the grid's coordinates — the same host lines in
  both —, multiply by the inverse-square weights and by 1000, and sum over the 360 views. The reference sums in one
  reduction. The kernel hands the sampled array and the weights to a region that, per block of 512 pixels, keeps an
  accumulator started at zero and adds to it nine partial sums of 40 consecutive views each. Over the extended reals
  addition is commutative and associative, infinities included, so the chain of nine partial sums is the one sum over
  the 360 views, and the two results are the same image of the same arguments; no finiteness of the inputs is needed.

  The three frames are the generated frame runs (the reference's: its generated run with the result dropped); the
  ideal pass rewrote nothing, so the kernel's idealization is its own text; the value claim joins the kernel's run read
  at the image (KernelValue) with the reference's run read at the image (RefStage).
-/
import proofs.«175098_j27350351741231_2_alg».proof.Defs
import proofs.«175098_j27350351741231_2_alg».proof.Proof.Gen.Kernel
import proofs.«175098_j27350351741231_2_alg».proof.Proof.Gen.Kernel.Frame
import proofs.«175098_j27350351741231_2_alg».proof.Proof.Gen.KernelIdeal
import proofs.«175098_j27350351741231_2_alg».proof.Proof.Gen.KernelIdeal.Frame
import proofs.«175098_j27350351741231_2_alg».proof.Proof.Gen.ReferenceIdeal
import proofs.«175098_j27350351741231_2_alg».proof.Proof.Gen.ReferenceIdeal.Run
import proofs.«175098_j27350351741231_2_alg».proof.Proof.Gen.ReferenceIdeal.Read
import proofs.«175098_j27350351741231_2_alg».proof.Proof.Gen.Pre_finite_inputs
import proofs.«175098_j27350351741231_2_alg».proof.Proof.KernelValue
import proofs.«175098_j27350351741231_2_alg».proof.Proof.RefStage
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the three arguments both idealized programs end with the back-projected image of the
    sampled stage of the sinogram and grid arguments and of the weights argument. -/
theorem algebraic : Cert.algebraic_KernelIdeal_ReferenceIdeal := by
  intro m ρ m' ρ' _ hagree
  refine ⟨fun c => Cert.BackProjection.image (Cert.KernelIdeal.KernelValue.sampled m c) (Cert.KernelIdeal.KernelValue.weights m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v125_eq, Cert.ReferenceIdeal.RefStage.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
